-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S10000x1024 : Shape := ⟨2, ![10000, 1024]⟩
abbrev S10000 : Shape := ⟨1, ![10000]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S10000x1024 : S_.BroadcastsInDim S10000x1024 (![] : Fin 0 → Fin S10000x1024.rank)
  reducesTo_S10000x1024_S_d0_1 : S10000x1024.ReducesTo [0, 1] S_
  bcast_S_S10000 : S_.BroadcastsInDim S10000 (![] : Fin 0 → Fin S10000.rank)
  reducesTo_S10000_S_d0 : S10000.ReducesTo [0] S_

variable [Facts]

def fn {F : FTy → Type} [FloatOps F] (main_arg0 : FVec F S8192x1024 .f32) (main_arg1 : IVec S8192 32) (main_arg2 : FVec F S10000x1024 .f32) (main_arg3 : FVec F S10000 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S10000x1024 .f32 := Host.absf main_arg2
  let main_cst_0 : FVec F S_ .f32 := constant S_ .f32 0x7F800000#32
  let main_v5 : FVec F S10000x1024 .f32 := broadcastInDim S10000x1024 ![] bcast_S_S10000x1024 main_cst_0
  let main_v6 : IVec S10000x1024 1 := cmpf .olt main_v4 main_v5
  let main_c_1 : IVec S_ 1 := constantI S_ 1 1#1
  let main_v7 : IVec S_ 1 := (fun x v => Host.reduce IntOp.andi x v reducesTo_S10000x1024_S_d0_1 h_S_) main_v6 main_c_1
  let main_v8 : IVec S_ 1 := andi main_v3 main_v7
  let main_v9 : FVec F S10000 .f32 := Host.absf main_arg3
  let main_cst_2 : FVec F S_ .f32 := constant S_ .f32 0x7F800000#32
  let main_v10 : FVec F S10000 .f32 := broadcastInDim S10000 ![] bcast_S_S10000 main_cst_2
  let main_v11 : IVec S10000 1 := cmpf .olt main_v9 main_v10
  let main_c_3 : IVec S_ 1 := constantI S_ 1 1#1
  let main_v12 : IVec S_ 1 := (fun x v => Host.reduce IntOp.andi x v reducesTo_S10000_S_d0 h_S_) main_v11 main_c_3
  let main_v13 : IVec S_ 1 := andi main_v8 main_v12
  main_v13
-- ==== Kernel.lean ====
abbrev S8192x1024 : Shape := ⟨2, ![8192, 1024]⟩
abbrev S8192 : Shape := ⟨1, ![8192]⟩
abbrev S10000x1024 : Shape := ⟨2, ![10000, 1024]⟩
abbrev S10000 : Shape := ⟨1, ![10000]⟩
abbrev S_ : Shape := ⟨0, ![]⟩
abbrev S8192x1 : Shape := ⟨2, ![8192, 1]⟩
abbrev S8192x2 : Shape := ⟨2, ![8192, 2]⟩
abbrev S10240x1024 : Shape := ⟨2, ![10240, 1024]⟩
abbrev S10240 : Shape := ⟨1, ![10240]⟩
abbrev S1x10240 : Shape := ⟨2, ![1, 10240]⟩
abbrev S8192x10240 : Shape := ⟨2, ![8192, 10240]⟩
abbrev S512x1024 : Shape := ⟨2, ![512, 1024]⟩
abbrev S1280x1024 : Shape := ⟨2, ![1280, 1024]⟩
abbrev S1x1280 : Shape := ⟨2, ![1, 1280]⟩
abbrev S512x1280 : Shape := ⟨2, ![512, 1280]⟩
abbrev S8192x10000 : Shape := ⟨2, ![8192, 10000]⟩

abbrev nBuf : Space → Nat
  | .hbm => 52
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S10000x1024, .f32⟩
  | .hbm, ⟨3, _⟩ => ⟨S10000, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S8192x1, .i32⟩
  | .hbm, ⟨33, _⟩ => ⟨S8192x1, .i32⟩
  | .hbm, ⟨34, _⟩ => ⟨S8192x2, .i32⟩
  | .hbm, ⟨35, _⟩ => ⟨S_, .f32⟩
  | .hbm, ⟨36, _⟩ => ⟨S8192, .f32⟩
  | .hbm, ⟨37, _⟩ => ⟨S8192x1024, .f32⟩
  | .hbm, ⟨38, _⟩ => ⟨S_, .i32⟩
  | .hbm, ⟨39, _⟩ => ⟨S_, .f32⟩
  | .hbm, ⟨40, _⟩ => ⟨S10240x1024, .f32⟩
  | .hbm, ⟨41, _⟩ => ⟨S_, .i32⟩
  | .hbm, ⟨42, _⟩ => ⟨S_, .f32⟩
  | .hbm, ⟨43, _⟩ => ⟨S10240, .f32⟩
  | .hbm, ⟨44, _⟩ => ⟨S1x10240, .f32⟩
  | .hbm, ⟨45, _⟩ => ⟨S8192x1024, .bf16⟩
  | .hbm, ⟨46, _⟩ => ⟨S8192x1024, .bf16⟩
  | .hbm, ⟨47, _⟩ => ⟨S10240x1024, .bf16⟩
  | .hbm, ⟨48, _⟩ => ⟨S8192x10240, .f32⟩
  | .hbm, ⟨49, _⟩ => ⟨S8192x10240, .f32⟩
  | .hbm, ⟨50, _⟩ => ⟨S8192x10000, .f32⟩
  | .hbm, ⟨51, _⟩ => ⟨S8192x10000, .f32⟩
  | .local _ .vmem, ⟨0, _⟩ => ⟨S512x1024, .bf16⟩
  | .local _ .vmem, ⟨1, _⟩ => ⟨S512x1024, .bf16⟩
  | .local _ .vmem, ⟨2, _⟩ => ⟨S1280x1024, .bf16⟩
  | .local _ .vmem, ⟨3, _⟩ => ⟨S1280x1024, .bf16⟩
  | .local _ .vmem, ⟨4, _⟩ => ⟨S1x1280, .f32⟩
  | .local _ .vmem, ⟨5, _⟩ => ⟨S1x1280, .f32⟩
  | .local _ .vmem, ⟨6, _⟩ => ⟨S512x1280, .f32⟩
  | .local _ .vmem, ⟨7, _⟩ => ⟨S512x1280, .f32⟩
  | .local _ .vmem, ⟨8, _⟩ => ⟨S512x1024, .bf16⟩
  | .local _ .vmem, ⟨9, _⟩ => ⟨S512x1024, .bf16⟩
  | .local _ .vmem, ⟨10, _⟩ => ⟨S1280x1024, .bf16⟩
  | .local _ .vmem, ⟨11, _⟩ => ⟨S1280x1024, .bf16⟩
  | .local _ .vmem, ⟨12, _⟩ => ⟨S1x1280, .f32⟩
  | .local _ .vmem, ⟨13, _⟩ => ⟨S1x1280, .f32⟩
  | .local _ .vmem, ⟨14, _⟩ => ⟨S512x1280, .f32⟩
  | .local _ .vmem, ⟨15, _⟩ => ⟨S512x1280, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_call1_v0 : Ref sig .tc := ⟨.hbm, 39, rfl⟩
abbrev main_v23 : Ref sig .tc := ⟨.hbm, 40, rfl⟩
abbrev main_c_6 : Ref sig .tc := ⟨.hbm, 41, rfl⟩
abbrev main_call2_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1280x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S_S8192x1024 : S_.BroadcastsInDim S8192x1024 (![] : Fin 0 → Fin S8192x1024.rank)
  bcast_S_S8192 : S_.BroadcastsInDim S8192 (![] : Fin 0 → Fin S8192.rank)
  concatenates_S8192x1_S8192x1_S8192x2_d1 : Shape.Concatenates [S8192x1, S8192x1] S8192x2 1
  pads_S10000x1024_S10240x1024_02400_000 : S10000x1024.Pads (![0, 0] : Fin 2 → Nat) ![240, 0] ![0, 0] S10240x1024
  pads_S10000_S10240_02400 : S10000.Pads (![0] : Fin 1 → Nat) ![240] ![0] S10240
  shapeCasts_S10240_S1x10240 : S10240.ShapeCasts S1x10240
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S512x1280 : S1x1280.Broadcasts S512x1280
  inb_S512x1280_S512x1280_0_0 : ∀ a, (![0, 0] : Fin 2 → Nat) a + S512x1280.size a ≤ S512x1280.size a
  h_S512x1280 : 0 < S512x1280.numel
  slices_S8192x10240_S8192x10000_0_0 : S8192x10240.Slices ![0, 0] S8192x10000
  scatter_S8192x1024_S8192x2_S8192_n_01_01_1_wf : ScatterDims.WF S8192x1024 S8192x2 S8192 [] [0, 1] [0, 1] 1
  dot_S512x1024_S1280x1024_S512x1280_1_1_0_0_n_n_wf : DotDims.WF S512x1024 S1280x1024 S512x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1024.size a ≤ S10240x1024.size a
  hwx0_1 : ∀ i : grid0.Coords, EltTy.bits .bf16 = 32 ∨ (Rect.block (s := S10240x1024) S1280x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x10240.size a
  hwx0_2 : ∀ i : grid0.Coords, EltTy.bits .f32 = 32 ∨ (Rect.block (s := S1x10240) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1280.size a ≤ S8192x10240.size a
  hwx0_3 : ∀ i : grid0.Coords, EltTy.bits .f32 = 32 ∨ (Rect.block (s := S8192x10240) S512x1280.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .bf16 = 32 ∨ (Rect.block (s := S8192x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x1024.size a ≤ S10240x1024.size a
  hwx1_1 : ∀ i : grid1.Coords, EltTy.bits .bf16 = 32 ∨ (Rect.block (s := S10240x1024) S1280x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1280.size a ≤ S1x10240.size a
  hwx1_2 : ∀ i : grid1.Coords, EltTy.bits .f32 = 32 ∨ (Rect.block (s := S1x10240) S1x1280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1280.size a ≤ S8192x10240.size a
  hwx1_3 : ∀ i : grid1.Coords, EltTy.bits .f32 = 32 ∨ (Rect.block (s := S8192x10240) S512x1280.size (cc1_transform_3 i) (hinb1_3 i)).WholeWords (EltTy.packing .f32)

variable [Facts₀]

def scatter_S8192x1024_S8192x2_S8192_n_01_01_1 : ScatterDims S8192x1024 S8192x2 S8192 where
  updateWindowDims := []
  insertedWindowDims := [0, 1]
  scatterDimsToOperandDims := [0, 1]
  indexVectorDim := 1
  wf := scatter_S8192x1024_S8192x2_S8192_n_01_01_1_wf
def dot_S512x1024_S1280x1024_S512x1280_1_1_0_0_n_n : DotDims S512x1024 S1280x1024 S512x1280 where
  lhsContracting := [1]
  rhsContracting := [1]
  lhsNonContracting := [0]
  rhsNonContracting := [0]
  lhsBatch := []
  rhsBatch := []
  wf := dot_S512x1024_S1280x1024_S512x1280_1_1_0_0_n_n_wf

abbrev win0_0 : Pipeline.Window sig grid0 :=
  Pipeline.Window.ofSpec (Memref.whole main_v26) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1280x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S512x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1280x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S512x1280.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S8192 : Shape := ⟨1, ![8192]⟩
abbrev S10000x1024 : Shape := ⟨2, ![10000, 1024]⟩
abbrev S10000 : Shape := ⟨1, ![10000]⟩
abbrev S_ : Shape := ⟨0, ![]⟩
abbrev S8192x1 : Shape := ⟨2, ![8192, 1]⟩
abbrev S1024x10000 : Shape := ⟨2, ![1024, 10000]⟩
abbrev S8192x10000 : Shape := ⟨2, ![8192, 10000]⟩
abbrev S1x10000 : Shape := ⟨2, ![1, 10000]⟩
abbrev S8192x2 : Shape := ⟨2, ![8192, 2]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S10000x1024, .f32⟩
  | .hbm, ⟨3, _⟩ => ⟨S10000, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S1024x10000, .f32⟩
  | .hbm, ⟨18, _⟩ => ⟨S8192x10000, .f32⟩
  | .hbm, ⟨19, _⟩ => ⟨S1x10000, .f32⟩
  | .hbm, ⟨20, _⟩ => ⟨S8192x10000, .f32⟩
  | .hbm, ⟨21, _⟩ => ⟨S8192x10000, .f32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S_, .i32⟩
  | .hbm, ⟨27, _⟩ => ⟨S8192, .i32⟩
  | .hbm, ⟨28, _⟩ => ⟨S8192, .i32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S8192x1, .i32⟩
  | .hbm, ⟨38, _⟩ => ⟨S8192x1, .i32⟩
  | .hbm, ⟨39, _⟩ => ⟨S8192x2, .i32⟩
  | .hbm, ⟨40, _⟩ => ⟨S_, .f32⟩
  | .hbm, ⟨41, _⟩ => ⟨S8192, .f32⟩
  | .hbm, ⟨42, _⟩ => ⟨S8192x1024, .f32⟩
  | .hbm, ⟨43, _⟩ => ⟨S1024x10000, .f32⟩
  | .hbm, ⟨44, _⟩ => ⟨S8192x10000, .f32⟩
  | .hbm, ⟨45, _⟩ => ⟨S1x10000, .f32⟩
  | .hbm, ⟨46, _⟩ => ⟨S8192x10000, .f32⟩
  | .hbm, ⟨47, _⟩ => ⟨S8192x10000, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S_S8192x1024 : S_.BroadcastsInDim S8192x1024 (![] : Fin 0 → Fin S8192x1024.rank)
  transposes_S10000x1024_S1024x10000_1_0 : S10000x1024.Transposes [1, 0] S1024x10000
  bcast_S10000_S1x10000_1 : S10000.BroadcastsInDim S1x10000 (![1] : Fin 1 → Fin S1x10000.rank)
  bcast_S1x10000_S8192x10000_0_1 : S1x10000.BroadcastsInDim S8192x10000 (![0, 1] : Fin 2 → Fin S8192x10000.rank)
  bcast_S_S8192 : S_.BroadcastsInDim S8192 (![] : Fin 0 → Fin S8192.rank)
  concatenates_S8192x1_S8192x1_S8192x2_d1 : Shape.Concatenates [S8192x1, S8192x1] S8192x2 1
  dot_S8192x1024_S1024x10000_S8192x10000_1_0_0_1_n_n_wf : DotDims.WF S8192x1024 S1024x10000 S8192x10000 [1] [0] [0] [1] [] []
  scatter_S8192x1024_S8192x2_S8192_n_01_01_1_wf : ScatterDims.WF S8192x1024 S8192x2 S8192 [] [0, 1] [0, 1] 1

variable [Facts₀]

def dot_S8192x1024_S1024x10000_S8192x10000_1_0_0_1_n_n : DotDims S8192x1024 S1024x10000 S8192x10000 where
  lhsContracting := [1]
  rhsContracting := [0]
  lhsNonContracting := [0]
  rhsNonContracting := [1]
  lhsBatch := []
  rhsBatch := []
  wf := dot_S8192x1024_S1024x10000_S8192x10000_1_0_0_1_n_n_wf
def scatter_S8192x1024_S8192x2_S8192_n_01_01_1 : ScatterDims S8192x1024 S8192x2 S8192 where
  updateWindowDims := []
  insertedWindowDims := [0, 1]
  scatterDimsToOperandDims := [0, 1]
  indexVectorDim := 1
  wf := scatter_S8192x1024_S8192x2_S8192_n_01_01_1_wf

class Facts : Prop extends Facts₀ where

variable [Facts]
-- ==== Proof.Affine.lean ====
/-
  The function both programs compute, stated once over the whole arrays.

  A batch of 8192 activation rows of 1024 features is scored against 10000 classes: the score of row `p` for
  class `c` is the inner product of the row with the class's weight row, plus the class's bias,

      scores a w b (p, c) = Σ_k a(p, k) · w(c, k) + b(c).

  It is a sum of products followed by one addition, so it is meaningful on the extended reals as it stands:
  nothing here distributes, cancels or moves a factor across the sum.
-/
import Idealize.ShloMosaic.PureOps.Ideal
import Idealize.ShloMosaic.Lib.ValueIdx

noncomputable section

open scoped BigOperators

namespace Cert.Affine

open Idealize.ShloMosaic Idealize.ShloMosaic.ValueIdx

/-- The activations: 8192 rows of 1024 features. -/
abbrev SAct : Shape := ⟨2, ![8192, 1024]⟩
/-- The weights: one row of 1024 features per class, 10000 classes. -/
abbrev SWgt : Shape := ⟨2, ![10000, 1024]⟩
/-- The biases: one per class. -/
abbrev SBias : Shape := ⟨1, ![10000]⟩
/-- The scores: one per activation row and class. -/
abbrev SOut : Shape := ⟨2, ![8192, 10000]⟩

/-- Row `i 0` of the activations against class `i 1`: the inner product with that class's weight row, plus its bias. -/
def scores (a : SAct.Idx → EReal) (w : SWgt.Idx → EReal) (b : SBias.Idx → EReal) : SOut.Idx → EReal :=
  fun i => (∑ k : Fin 1024, a (ix2 (n0 := 8192) ⟨(i 0).val, (i 0).isLt⟩ k) * w (ix2 (n0 := 10000) ⟨(i 1).val, (i 1).isLt⟩ k))
    + b (ix1 (n := 10000) ⟨(i 1).val, (i 1).isLt⟩)

end Cert.Affine

end
-- ==== Proof.RefScores.lean ====
/-
  The reference's two results are the scores of its two activation arrays.

  The reference multiplies an activation array by the transposed weights, contracting the 1024 features, and adds the
  bias broadcast over the rows. Read at an index `(p, c)`: the product is the sum over `k` of the activation at
  `(p, k)` times the transposed weights at `(k, c)`, the transpose reads the weights at `(c, k)`, and the two
  broadcasts of the bias read it at `c`. That is `Affine.scores` of the activation array, for the plain normalised
  activations (the predictions) and for the ones with the margin subtracted (the loss), neither of which is opened.
-/
import proofs.«173671_j35278861369532_1_alg».proof.Proof.Gen.ReferenceIdeal.Read
import proofs.«173671_j35278861369532_1_alg».proof.Proof.Affine

noncomputable section

open scoped BigOperators

namespace Cert.RefScores

open Cert.ReferenceIdeal Cert.ReferenceIdeal.Read Idealize.ShloMosaic Idealize.ShloMosaic.ValueIdx Cert.Affine

/-- The predictions: the normalised activations scored against the weights and biases. -/
theorem predict_eq (x0 : (⟨S8192x1024, .f32⟩ : BufTy).Contents (Elt Ideal)) (x2 : (⟨S10000x1024, .f32⟩ : BufTy).Contents (Elt Ideal))
    (x3 : (⟨S10000, .f32⟩ : BufTy).Contents (Elt Ideal)) :
    val_main_v11 (F := Ideal) x0 x2 x3 = scores (val_main_v6 (F := Ideal) x0) x2 x3 := by
  funext i
  rw [val_main_v11_apply, val_main_v8_apply, val_main_v10_apply, val_main_v9_apply]
  simp only [val_main_v7_apply]
  unfold scores
  show (_ : EReal) + _ = _
  refine congrArg₂ (· + ·) (Finset.sum_congr rfl fun k _ => congrArg₂ (· * ·) (congrArg _ ?_) (congrArg _ ?_)) (congrArg _ ?_)
  · exact funext fun a => by match a with | ⟨0, _⟩ => rfl | ⟨1, _⟩ => rfl
  · exact funext fun a => by match a with | ⟨0, _⟩ => rfl | ⟨1, _⟩ => rfl
  · exact funext fun a => by match a with | ⟨0, _⟩ => rfl

/-- The loss logits: the activations with the margin subtracted, scored against the same weights and biases. -/
theorem loss_eq (x0 : (⟨S8192x1024, .f32⟩ : BufTy).Contents (Elt Ideal)) (x1 : (⟨S8192, .i32⟩ : BufTy).Contents (Elt Ideal))
    (x2 : (⟨S10000x1024, .f32⟩ : BufTy).Contents (Elt Ideal)) (x3 : (⟨S10000, .f32⟩ : BufTy).Contents (Elt Ideal)) :
    val_main_v32 (F := Ideal) x0 x1 x2 x3 = scores (val_main_v27 (F := Ideal) x0 x1) x2 x3 := by
  funext i
  rw [val_main_v32_apply, val_main_v29_apply, val_main_v31_apply, val_main_v30_apply]
  simp only [val_main_v28_apply]
  unfold scores
  show (_ : EReal) + _ = _
  refine congrArg₂ (· + ·) (Finset.sum_congr rfl fun k _ => congrArg₂ (· * ·) (congrArg _ ?_) (congrArg _ ?_)) (congrArg _ ?_)
  · exact funext fun a => by match a with | ⟨0, _⟩ => rfl | ⟨1, _⟩ => rfl
  · exact funext fun a => by match a with | ⟨0, _⟩ => rfl | ⟨1, _⟩ => rfl
  · exact funext fun a => by match a with | ⟨0, _⟩ => rfl

end Cert.RefScores

end
-- ==== Proof.KernelRun.lean ====
/-
  The kernel program's run, with its two result arrays read.

  The program is six stretches of host operations, the two launches, and a last stretch of two slices. The contents of
  every buffer at each boundary are a fold from the launch memory: a host stretch applies its operations, a launch
  replaces its four arrays by what its write-backs leave and keeps every other buffer. Every weakly fair execution
  terminates, nothing faulting, in a state whose buffers hold the last boundary's contents; read at the two result
  buffers and at the four arguments (which no operation writes), that is the run stated here.
-/
import proofs.«173671_j35278861369532_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the loss logits and the predictions at the last
    boundary's contents and the four arguments as launched. -/
theorem run_final : θ_run defs (onTc (τ := τ) (main (F := F))) ⟨m, fun _ => 0, ρ⟩ (fun r => ∀ c : Dev nD,
      r.2.mem ((c.tc : Thread nD τ).loc main_v32) = W9 m ρ c (Proc.devRef .tc main_v32)
      ∧ r.2.mem ((c.tc : Thread nD τ).loc main_v31) = W9 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v32 (by decide)),
       h c _ (mem_uc main_v31 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c)⟩)

end Cert.KernelRun

end
-- ==== Proof.LibIndexReads.lean ====
/-
  Three general readings at an index, at the ideal values or at any values.

  * a matrix product into a zero accumulator whose dimension numbers contract ONE axis of extent `n`
    is, at an output index, the sum over `k : Fin n` of the left operand at `L k` times the right at `R k`,
    for whatever index maps `L`, `R` the caller shows the dimension numbers to induce;
  * an `[a, b]` array viewed as `[a, b, 1]` (a reduction's kept last axis), read at `(p, q, u)`, is entry `(p, q)`;
  * an `[a, b, 1]` array broadcast to `[a, b, c]`, read at `(p, q, r)`, is entry `(p, q, 0)`.
-/
import Idealize.ShloMosaic.PureOps.Ideal.Laws
import Idealize.ShloMosaic.Lib.ValueIdx
import Idealize.ShloMosaic.Lib.Pipeline.Value

noncomputable section

namespace Cert.IndexReads

open Idealize.ShloMosaic Idealize.ShloMosaic.ValueIdx

/-- A matrix product into the zero accumulator, contracting one axis of extent `n`, read at an output
    index `j`: the sum over that axis of the operands' products, the operands read where the dimension
    numbers say (`hL`, `hR`). -/
theorem matmul_zero_single {sl sr so : Shape} {φ₁ φ₂ : FTy} (d : DotDims sl sr so) (n : Nat) (hr : d.contr.rank = 1)
    (hs : d.contr.size ⟨0, by omega⟩ = n) (prec : Option ContractPrecision)
    (lhs : FVec Ideal sl φ₁) (rhs : FVec Ideal sr φ₂) (j : so.Idx) (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    FloatOps.matmul d prec lhs rhs (constant so .f32 0x00000000#32) j = ∑ k : Fin n, lhs (L k) * rhs (R k) := by
  rw [Ideal.matmul_constant_zero_apply, ← Equiv.sum_comp (contrEquiv1 d n hr hs).symm]
  exact Finset.sum_congr rfl fun k _ => by rw [hL k, hR k]

variable {α : Type}

/-- An `[a, b]` array viewed `[a, b, 1]`, at `(p, q, u)`, is entry `(p, q)`: the two indices have one row-major position. -/
theorem keepLast_apply {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) := by
  refine shapeCast_apply v h (ix3 p q u) (ix2 p q) ?_
  rw [Shape.rowMajor_val_two, Shape.rowMajor_val_three]
  show p.val * b + q.val = (p.val * b + q.val) * 1 + u.val
  have := u.isLt
  omega

/-- An `[a, b, 1]` array broadcast to `[a, b, c]`, at `(p, q, r)`, is entry `(p, q, 0)`. -/
theorem spreadLast_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q 0) := by
  refine broadcastTo_apply v h (ix3 p q r) (ix3 p q 0) fun i => ?_
  match i with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ => rfl

end Cert.IndexReads

end
-- ==== Proof.BlockScores.lean ====
/-
  One grid point's work, read at an entry of its output block.

  The kernel body multiplies a block of 512 activation rows by a block of 1280 weight rows, contracting the 1024
  features of both (axis 1 of each) into a zero accumulator, and adds the block's row of 1280 biases to every one of
  the 512 rows. At entry `(p, q)` of the output block that is the inner product of activation row `p` with weight
  row `q`, plus bias `q`. The two launches run the same body.
-/
import proofs.«173671_j35278861369532_1_alg».proof.Proof.Gen.KernelIdeal.Skeleton
import proofs.«173671_j35278861369532_1_alg».proof.Proof.LibIndexReads
import Idealize.ShloMosaic.Lib.ValueLayout

noncomputable section

open scoped BigOperators

namespace Cert.BlockScores

open Cert.KernelIdeal Cert.KernelIdeal.Gen Idealize.ShloMosaic Idealize.ShloMosaic.ValueIdx

/-- The contraction has one axis, of extent 1024. -/
theorem contr_rank : dot_S512x1024_S1280x1024_S512x1280_1_1_0_0_n_n.contr.rank = 1 := rfl
theorem contr_size : dot_S512x1024_S1280x1024_S512x1280_1_1_0_0_n_n.contr.size ⟨0, by rw [contr_rank]; exact Nat.one_pos⟩ = 1024 := rfl

/-- The activation block is read at the output's row and the contracted feature. -/
theorem lhs_at (p : Fin 512) (q : Fin 1280) (k : Fin 1024) :
    dot_S512x1024_S1280x1024_S512x1280_1_1_0_0_n_n.lhsIdx (ix2 p q)
      ((contrEquiv1 dot_S512x1024_S1280x1024_S512x1280_1_1_0_0_n_n 1024 contr_rank contr_size).symm k) = ix2 p k := by
  have hk := contrEquiv1_symm_val dot_S512x1024_S1280x1024_S512x1280_1_1_0_0_n_n 1024 contr_rank contr_size k
  funext a
  apply Fin.ext
  match a with
  | ⟨0, _⟩ =>
    show (dot_S512x1024_S1280x1024_S512x1280_1_1_0_0_n_n.lhsIdx (ix2 p q) _ 0).val = p.val
    unfold DotDims.lhsIdx
    rw [dif_neg (show ¬(0 : Fin S512x1024.rank) ∈ dot_S512x1024_S1280x1024_S512x1280_1_1_0_0_n_n.lhsBatch by decide),
      dif_pos (show (0 : Fin S512x1024.rank) ∈ dot_S512x1024_S1280x1024_S512x1280_1_1_0_0_n_n.lhsNonContracting by decide)]
    rfl
  | ⟨1, _⟩ =>
    exact (dot_S512x1024_S1280x1024_S512x1280_1_1_0_0_n_n.lhsIdx_val_of_single (cl := 1) rfl (ix2 p q) _).trans hk

/-- The weight block is read at the output's column (a weight row) and the contracted feature. -/
theorem rhs_at (p : Fin 512) (q : Fin 1280) (k : Fin 1024) :
    dot_S512x1024_S1280x1024_S512x1280_1_1_0_0_n_n.rhsIdx (ix2 p q)
      ((contrEquiv1 dot_S512x1024_S1280x1024_S512x1280_1_1_0_0_n_n 1024 contr_rank contr_size).symm k) = ix2 q k := by
  have hk := contrEquiv1_symm_val dot_S512x1024_S1280x1024_S512x1280_1_1_0_0_n_n 1024 contr_rank contr_size k
  funext a
  apply Fin.ext
  match a with
  | ⟨0, _⟩ =>
    show (dot_S512x1024_S1280x1024_S512x1280_1_1_0_0_n_n.rhsIdx (ix2 p q) _ 0).val = q.val
    unfold DotDims.rhsIdx
    rw [dif_neg (show ¬(0 : Fin S1280x1024.rank) ∈ dot_S512x1024_S1280x1024_S512x1280_1_1_0_0_n_n.rhsBatch by decide),
      dif_pos (show (0 : Fin S1280x1024.rank) ∈ dot_S512x1024_S1280x1024_S512x1280_1_1_0_0_n_n.rhsNonContracting by decide)]
    rfl
  | ⟨1, _⟩ =>
    exact (dot_S512x1024_S1280x1024_S512x1280_1_1_0_0_n_n.rhsIdx_val_of_single (cr := 1) rfl (ix2 p q) _).trans hk

/-- Entry `(p, q)` of what the first launch's body stores: activation row `p` against weight row `q`, plus bias `q`. -/
theorem pay0_apply (x0 : Vec Ideal S512x1024 .bf16) (x1 : Vec Ideal S1280x1024 .bf16) (x2 : Vec Ideal S1x1280 .f32)
    (p : Fin 512) (q : Fin 1280) :
    k0_pay1 (F := Ideal) x0 x1 x2 (ix2 p q) = (∑ k : Fin 1024, x0 (ix2 p k) * x1 (ix2 q k)) + x2 (ix2 (0 : Fin 1) q) := by
  unfold k0_pay1
  rw [shapeCast_self, shapeCast_self, shapeCast_self, addf_apply]
  refine congrArg₂ (· + ·) ?_ ?_
  · exact Cert.IndexReads.matmul_zero_single dot_S512x1024_S1280x1024_S512x1280_1_1_0_0_n_n 1024 contr_rank contr_size none
      x0 x1 (ix2 p q) (fun k => ix2 p k) (fun k => ix2 q k) (lhs_at p q) (rhs_at p q)
  · exact broadcastTo_1b_ab_apply x2 broadcasts_S1x1280_S512x1280 p q

/-- The second launch runs the same body. -/
theorem pay1_apply (x0 : Vec Ideal S512x1024 .bf16) (x1 : Vec Ideal S1280x1024 .bf16) (x2 : Vec Ideal S1x1280 .f32)
    (p : Fin 512) (q : Fin 1280) :
    k1_pay1 (F := Ideal) x0 x1 x2 (ix2 p q) = (∑ k : Fin 1024, x0 (ix2 p k) * x1 (ix2 q k)) + x2 (ix2 (0 : Fin 1) q) :=
  pay0_apply x0 x1 x2 p q

end Cert.BlockScores

end
-- ==== Proof.PadScores.lean ====
/-
  The scores over the padded class axis: the function each launch computes on its three input arrays.

  The kernel pads the 10000 classes to 10240 so that the class axis splits into 8 blocks of 1280; a launch then scores
  every activation row against every padded weight row. Row `i 0`, padded class `i 1`:

      padScores a w b (p, c) = Σ_k a(p, k) · w(c, k) + b(0, c),

  the biases being given as one row.
-/
import proofs.«173671_j35278861369532_1_alg».proof.KernelIdeal
import Idealize.ShloMosaic.Lib.ValueIdx

noncomputable section

open scoped BigOperators

namespace Cert.PadScores

open Cert.KernelIdeal Idealize.ShloMosaic Idealize.ShloMosaic.ValueIdx

/-- Activation row `i 0` against padded weight row `i 1`, plus the padded bias row's entry `i 1`. -/
def padScores (a : S8192x1024.Idx → EReal) (w : S10240x1024.Idx → EReal) (b : S1x10240.Idx → EReal) : S8192x10240.Idx → EReal :=
  fun i => (∑ k : Fin 1024, a (ix2 (n0 := 8192) ⟨(i 0).val, (i 0).isLt⟩ k) * w (ix2 (n0 := 10240) ⟨(i 1).val, (i 1).isLt⟩ k))
    + b (ix2 (0 : Fin 1) (⟨(i 1).val, (i 1).isLt⟩ : Fin 10240))

/-- The offset of a load or store of a whole staging buffer. -/
theorem origin : (![0, 0] : Fin 2 → Nat) = fun _ => 0 := funext fun a => by fin_cases a <;> rfl

end Cert.PadScores

end
-- ==== Proof.Region0.lean ====
/-
  What the first launch leaves in its output array: the scores over the padded class axis.

  The grid is 16 row blocks by 8 class blocks. At point (i, j) the launch stages rows 512·i … 512·i+511 of the
  activations, rows 1280·j … 1280·j+1279 of the (padded) weights and columns 1280·j … of the (padded) bias row, runs the
  body, and writes the 512 × 1280 result back as block (i, j) of the output. Entry (p, q) of that block is activation row
  512·i+p against weight row 1280·j+q plus bias 1280·j+q, which is the whole-array function `padScores` read at the
  block's place. The 128 blocks tile the 8192 × 10240 output, so after the launch the array IS `padScores` of the three
  input arrays as the launch found them, whatever those are.
-/
import proofs.«173671_j35278861369532_1_alg».proof.Proof.Gen.KernelIdeal.Frame
import proofs.«173671_j35278861369532_1_alg».proof.Proof.BlockScores
import proofs.«173671_j35278861369532_1_alg».proof.Proof.PadScores
import Idealize.ShloMosaic.Lib.Pipeline.Value

set_option maxRecDepth 16384

noncomputable section

open scoped BigOperators

namespace Cert.Region0

open Cert.KernelIdeal Cert.KernelIdeal.Gen Cert.PadScores
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the activations' block follows the output's row block, the weights' and the bias's
    follow its class block, and the output's block indices stay inside 16 × 8. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 15 ∧ win0_3.index t (1 : Fin 2) ≤ 7 :=
  (by decide +kernel : ∀ t : Fin grid0.N, _)

/-- Every block of the 16 × 8 tiling is some grid point's. -/
theorem idx_onto : ∀ (q0 : Fin 16) (q1 : Fin 8), ∃ t : Fin cfg0.N, win0_3.index t = ![q0.val, q1.val] :=
  (by decide +kernel : ∀ (q0 : Fin 16) (q1 : Fin 8), ∃ t : Fin grid0.N, win0_3.index t = ![q0.val, q1.val])

/-- The activations' block at a point, read at (p, k): row 512·i + p of the array, feature k. -/
theorem act_read (c : Dev nD) (t : Fin cfg0.N) (p : Fin 512) (k : Fin 1024) (r : Fin 8192)
    (hr : r.val = win0_3.index t (0 : Fin 2) * 512 + p.val) :
    iblk0 V c 0 t (ix2 p k) = V c main_v26 (ix2 r k) := by
  obtain ⟨e0, e1, -⟩ := idx_facts t
  show V c main_v26 (((cfg0.win 0).blk t).view.emb (ix2 p k)) = V c main_v26 (ix2 r k)
  refine congrArg (V c main_v26) (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

/-- The weights' block at a point, read at (q, k): row 1280·j + q of the padded weights, feature k. -/
theorem wgt_read (c : Dev nD) (t : Fin cfg0.N) (q : Fin 1280) (k : Fin 1024) (s : Fin 10240)
    (hs : s.val = win0_3.index t (1 : Fin 2) * 1280 + q.val) :
    iblk0 V c 1 t (ix2 q k) = V c main_v28 (ix2 s k) := by
  obtain ⟨-, -, e2, e3, -⟩ := idx_facts t
  show V c main_v28 (((cfg0.win 1).blk t).view.emb (ix2 q k)) = V c main_v28 (ix2 s k)
  refine congrArg (V c main_v28) (funext fun a => Fin.ext ?_)
  match a with
  | ⟨0, _⟩ => show win0_1.index t (0 : Fin 2) * 1280 + 1 * q.val = s.val; omega
  | ⟨1, _⟩ => show win0_1.index t (1 : Fin 2) * 1024 + 1 * k.val = k.val; omega

/-- The bias row's block at a point, read at (0, q): column 1280·j + q of the padded bias row. -/
theorem bias_read (c : Dev nD) (t : Fin cfg0.N) (q : Fin 1280) (s : Fin 10240)
    (hs : s.val = win0_3.index t (1 : Fin 2) * 1280 + q.val) :
    iblk0 V c 2 t (ix2 (0 : Fin 1) q) = V c main_v25 (ix2 (0 : Fin 1) s) := by
  obtain ⟨-, -, -, -, e4, e5, -⟩ := idx_facts t
  show V c main_v25 (((cfg0.win 2).blk t).view.emb (ix2 (0 : Fin 1) q)) = V c main_v25 (ix2 (0 : Fin 1) s)
  refine congrArg (V c main_v25) (funext fun a => Fin.ext ?_)
  match a with
  | ⟨0, _⟩ => show win0_2.index t (0 : Fin 2) * 1 + 1 * 0 = 0; omega
  | ⟨1, _⟩ => show win0_2.index t (1 : Fin 2) * 1280 + 1 * q.val = s.val; omega

/-- What point `t` writes back is block `t` of the padded scores of the three arrays as the launch finds them. -/
theorem flushed_eq (c : Dev nD) (t : Fin cfg0.N) :
    (dat0 V c).flushed 3 t = ((cfg0.win 3).blk t).view.read (Elt Ideal) (padScores (V c main_v26) (V c main_v28) (V c main_v25)) := by
  show (cfg0.win 3).cut (grid0.coords t) ((dat0 V c).after 3 t) = _
  rw [after0_3]
  unfold out0_3
  rw [View.canon_unit_zero origin]
  simp only [View.ld_unit_zero (S := S512x1024) origin, View.ld_unit_zero (S := S1280x1024) origin, View.ld_unit_zero (S := S1x1280) origin]
  obtain ⟨-, -, -, -, -, -, e6, e7⟩ := idx_facts t
  funext j
  obtain ⟨p, q, rfl⟩ : ∃ (p : Fin 512) (q : Fin 1280), j = ix2 p q := ⟨j 0, j 1, eq_ix2 j⟩
  refine (Cert.BlockScores.pay0_apply (iblk0 V c 0 t) (iblk0 V c 1 t) (iblk0 V c 2 t) p q).trans ?_
  have hp : p.val < 512 := p.isLt
  have hq : q.val < 1280 := q.isLt
  show _ = padScores (V c main_v26) (V c main_v28) (V c main_v25) (((cfg0.win 3).blk t).view.emb (ix2 p q))
  unfold padScores
  refine congrArg₂ (· + ·) (Finset.sum_congr rfl fun k _ => congrArg₂ (· * ·) ?_ ?_) ?_
  · exact act_read V c t p k _ (show win0_3.index t (0 : Fin 2) * 512 + 1 * p.val = _ by omega)
  · exact wgt_read V c t q k _ (show win0_3.index t (1 : Fin 2) * 1280 + 1 * q.val = _ by omega)
  · exact bias_read V c t q _ (show win0_3.index t (1 : Fin 2) * 1280 + 1 * q.val = _ by omega)

/-- An index of the output is in point `t`'s block iff each coordinate is in the block's range on its axis. -/
theorem mem_blk (t : Fin cfg0.N) (i : S8192x10240.Idx) :
    i ∈ ((cfg0.win 3).blk t).view.set ↔ ∀ a : Fin 2, win0_3.index t a * S512x1280.size a ≤ (i a).val ∧ (i a).val < win0_3.index t a * S512x1280.size a + S512x1280.size a := by
  show i ∈ ((View.whole main_v29).slice (win0_3.rect t)).set ↔ _
  rw [View.set_slice_whole, Rect.mem_set_unit]
  exact Iff.rfl

/-- Every index of the output is in some point's block: the block of its row block and class block. -/
theorem cover (i : S8192x10240.Idx) : ∃ t : Fin cfg0.N, (cfg0.win 3).flush t = true ∧ i ∈ ((cfg0.win 3).blk t).view.set := by
  have hi0 : (i 0).val < 8192 := (i 0).isLt
  have hi1 : (i 1).val < 10240 := (i 1).isLt
  obtain ⟨t, ht⟩ := idx_onto ⟨(i 0).val / 512, by omega⟩ ⟨(i 1).val / 1280, by omega⟩
  have q0 : win0_3.index t (0 : Fin 2) = (i 0).val / 512 := congrFun ht 0
  have q1 : win0_3.index t (1 : Fin 2) = (i 1).val / 1280 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1280 ≤ (i 1).val ∧ (i 1).val < win0_3.index t (1 : Fin 2) * 1280 + 1280; omega

/-- After the launch its output array is the padded scores of its three input arrays as it found them. -/
theorem final (c : Dev nD) :
    (dat0 V c).arrAt 3 cfg0.N = padScores (V c main_v26) (V c main_v28) (V c main_v25) :=
  (dat0 V c).arrAt_eq_of_cover 3 _ (fun t _ => flushed_eq V c t) cover

end Cert.Region0

end
-- ==== Proof.Region1.lean ====
/-
  What the second launch leaves in its output array: the scores over the padded class axis.

  The grid is 16 row blocks by 8 class blocks. At point (i, j) the launch stages rows 512·i … 512·i+511 of the
  activations, rows 1280·j … 1280·j+1279 of the (padded) weights and columns 1280·j … of the (padded) bias row, runs the
  body, and writes the 512 × 1280 result back as block (i, j) of the output. Entry (p, q) of that block is activation row
  512·i+p against weight row 1280·j+q plus bias 1280·j+q, which is the whole-array function `padScores` read at the
  block's place. The 128 blocks tile the 8192 × 10240 output, so after the launch the array IS `padScores` of the three
  input arrays as the launch found them, whatever those are.
-/
import proofs.«173671_j35278861369532_1_alg».proof.Proof.Gen.KernelIdeal.Frame
import proofs.«173671_j35278861369532_1_alg».proof.Proof.BlockScores
import proofs.«173671_j35278861369532_1_alg».proof.Proof.PadScores
import Idealize.ShloMosaic.Lib.Pipeline.Value

set_option maxRecDepth 16384

noncomputable section

open scoped BigOperators

namespace Cert.Region1

open Cert.KernelIdeal Cert.KernelIdeal.Gen Cert.PadScores
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the activations' block follows the output's row block, the weights' and the bias's
    follow its class block, and the output's block indices stay inside 16 × 8. -/
theorem idx_facts : ∀ t : Fin cfg1.N,
    win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = 0 ∧ win1_2.index t (1 : Fin 2) = win1_3.index t (1 : Fin 2)
    ∧ win1_3.index t (0 : Fin 2) ≤ 15 ∧ win1_3.index t (1 : Fin 2) ≤ 7 :=
  (by decide +kernel : ∀ t : Fin grid1.N, _)

/-- Every block of the 16 × 8 tiling is some grid point's. -/
theorem idx_onto : ∀ (q0 : Fin 16) (q1 : Fin 8), ∃ t : Fin cfg1.N, win1_3.index t = ![q0.val, q1.val] :=
  (by decide +kernel : ∀ (q0 : Fin 16) (q1 : Fin 8), ∃ t : Fin grid1.N, win1_3.index t = ![q0.val, q1.val])

/-- The activations' block at a point, read at (p, k): row 512·i + p of the array, feature k. -/
theorem act_read (c : Dev nD) (t : Fin cfg1.N) (p : Fin 512) (k : Fin 1024) (r : Fin 8192)
    (hr : r.val = win1_3.index t (0 : Fin 2) * 512 + p.val) :
    iblk1 V c 0 t (ix2 p k) = V c main_v27 (ix2 r k) := by
  obtain ⟨e0, e1, -⟩ := idx_facts t
  show V c main_v27 (((cfg1.win 0).blk t).view.emb (ix2 p k)) = V c main_v27 (ix2 r k)
  refine congrArg (V c main_v27) (funext fun a => Fin.ext ?_)
  match a with
  | ⟨0, _⟩ => show win1_0.index t (0 : Fin 2) * 512 + 1 * p.val = r.val; omega
  | ⟨1, _⟩ => show win1_0.index t (1 : Fin 2) * 1024 + 1 * k.val = k.val; omega

/-- The weights' block at a point, read at (q, k): row 1280·j + q of the padded weights, feature k. -/
theorem wgt_read (c : Dev nD) (t : Fin cfg1.N) (q : Fin 1280) (k : Fin 1024) (s : Fin 10240)
    (hs : s.val = win1_3.index t (1 : Fin 2) * 1280 + q.val) :
    iblk1 V c 1 t (ix2 q k) = V c main_v28 (ix2 s k) := by
  obtain ⟨-, -, e2, e3, -⟩ := idx_facts t
  show V c main_v28 (((cfg1.win 1).blk t).view.emb (ix2 q k)) = V c main_v28 (ix2 s k)
  refine congrArg (V c main_v28) (funext fun a => Fin.ext ?_)
  match a with
  | ⟨0, _⟩ => show win1_1.index t (0 : Fin 2) * 1280 + 1 * q.val = s.val; omega
  | ⟨1, _⟩ => show win1_1.index t (1 : Fin 2) * 1024 + 1 * k.val = k.val; omega

/-- The bias row's block at a point, read at (0, q): column 1280·j + q of the padded bias row. -/
theorem bias_read (c : Dev nD) (t : Fin cfg1.N) (q : Fin 1280) (s : Fin 10240)
    (hs : s.val = win1_3.index t (1 : Fin 2) * 1280 + q.val) :
    iblk1 V c 2 t (ix2 (0 : Fin 1) q) = V c main_v25 (ix2 (0 : Fin 1) s) := by
  obtain ⟨-, -, -, -, e4, e5, -⟩ := idx_facts t
  show V c main_v25 (((cfg1.win 2).blk t).view.emb (ix2 (0 : Fin 1) q)) = V c main_v25 (ix2 (0 : Fin 1) s)
  refine congrArg (V c main_v25) (funext fun a => Fin.ext ?_)
  match a with
  | ⟨0, _⟩ => show win1_2.index t (0 : Fin 2) * 1 + 1 * 0 = 0; omega
  | ⟨1, _⟩ => show win1_2.index t (1 : Fin 2) * 1280 + 1 * q.val = s.val; omega

/-- What point `t` writes back is block `t` of the padded scores of the three arrays as the launch finds them. -/
theorem flushed_eq (c : Dev nD) (t : Fin cfg1.N) :
    (dat1 V c).flushed 3 t = ((cfg1.win 3).blk t).view.read (Elt Ideal) (padScores (V c main_v27) (V c main_v28) (V c main_v25)) := by
  show (cfg1.win 3).cut (grid1.coords t) ((dat1 V c).after 3 t) = _
  rw [after1_3]
  unfold out1_3
  rw [View.canon_unit_zero origin]
  simp only [View.ld_unit_zero (S := S512x1024) origin, View.ld_unit_zero (S := S1280x1024) origin, View.ld_unit_zero (S := S1x1280) origin]
  obtain ⟨-, -, -, -, -, -, e6, e7⟩ := idx_facts t
  funext j
  obtain ⟨p, q, rfl⟩ : ∃ (p : Fin 512) (q : Fin 1280), j = ix2 p q := ⟨j 0, j 1, eq_ix2 j⟩
  refine (Cert.BlockScores.pay1_apply (iblk1 V c 0 t) (iblk1 V c 1 t) (iblk1 V c 2 t) p q).trans ?_
  have hp : p.val < 512 := p.isLt
  have hq : q.val < 1280 := q.isLt
  show _ = padScores (V c main_v27) (V c main_v28) (V c main_v25) (((cfg1.win 3).blk t).view.emb (ix2 p q))
  unfold padScores
  refine congrArg₂ (· + ·) (Finset.sum_congr rfl fun k _ => congrArg₂ (· * ·) ?_ ?_) ?_
  · exact act_read V c t p k _ (show win1_3.index t (0 : Fin 2) * 512 + 1 * p.val = _ by omega)
  · exact wgt_read V c t q k _ (show win1_3.index t (1 : Fin 2) * 1280 + 1 * q.val = _ by omega)
  · exact bias_read V c t q _ (show win1_3.index t (1 : Fin 2) * 1280 + 1 * q.val = _ by omega)

/-- An index of the output is in point `t`'s block iff each coordinate is in the block's range on its axis. -/
theorem mem_blk (t : Fin cfg1.N) (i : S8192x10240.Idx) :
    i ∈ ((cfg1.win 3).blk t).view.set ↔ ∀ a : Fin 2, win1_3.index t a * S512x1280.size a ≤ (i a).val ∧ (i a).val < win1_3.index t a * S512x1280.size a + S512x1280.size a := by
  show i ∈ ((View.whole main_v30).slice (win1_3.rect t)).set ↔ _
  rw [View.set_slice_whole, Rect.mem_set_unit]
  exact Iff.rfl

/-- Every index of the output is in some point's block: the block of its row block and class block. -/
theorem cover (i : S8192x10240.Idx) : ∃ t : Fin cfg1.N, (cfg1.win 3).flush t = true ∧ i ∈ ((cfg1.win 3).blk t).view.set := by
  have hi0 : (i 0).val < 8192 := (i 0).isLt
  have hi1 : (i 1).val < 10240 := (i 1).isLt
  obtain ⟨t, ht⟩ := idx_onto ⟨(i 0).val / 512, by omega⟩ ⟨(i 1).val / 1280, by omega⟩
  have q0 : win1_3.index t (0 : Fin 2) = (i 0).val / 512 := congrFun ht 0
  have q1 : win1_3.index t (1 : Fin 2) = (i 1).val / 1280 := congrFun ht 1
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1280 ≤ (i 1).val ∧ (i 1).val < win1_3.index t (1 : Fin 2) * 1280 + 1280; omega

/-- After the launch its output array is the padded scores of its three input arrays as it found them. -/
theorem final (c : Dev nD) :
    (dat1 V c).arrAt 3 cfg1.N = padScores (V c main_v27) (V c main_v28) (V c main_v25) :=
  (dat1 V c).arrAt_eq_of_cover 3 _ (fun t _ => flushed_eq V c t) cover

end Cert.Region1

end
-- ==== Proof.HostEntry.lean ====
/-
  What the two launches are given: their input arrays, as terms of the program's arguments.

  Before the first launch the program computes on the host the normalised activations and, from them and the target
  indices, the activations with the margin subtracted (the same operations, in the same order and with the same
  constants, as the reference: neither is opened here, both are named by the reference's own stages); it appends 240
  rows to the weights and 240 entries to the biases, lays the padded biases out as one row, and narrows the two
  activation arrays and the padded weights to sixteen bits. Each of these is read off the fold of the host operations
  over the launch memory.
-/
import proofs.«173671_j35278861369532_1_alg».proof.Proof.Gen.KernelIdeal.Frame
import proofs.«173671_j35278861369532_1_alg».proof.Proof.Gen.ReferenceIdeal.Read

set_option maxRecDepth 16384

noncomputable section

namespace Cert.HostEntry

open Cert.KernelIdeal Cert.KernelIdeal.Gen
open Idealize.ShloMosaic Idealize.ShloMosaic.TcCoe Idealize.SL.Sem Idealize.ShloMosaic.StableHlo

/-- The weights with 240 rows appended below (the value appended is the integer zero converted to a float). -/
def padWgt (w : (⟨S10000x1024, .f32⟩ : BufTy).Contents (Elt Ideal)) : (⟨S10240x1024, .f32⟩ : BufTy).Contents (Elt Ideal) :=
  pad S10240x1024 ![0, 0] ![240, 0] ![0, 0] w (sitofp (F := Ideal) .f32 (constantI S_ 32 0#32)) pads_S10000x1024_S10240x1024_02400_000 h_S_

/-- The biases with 240 entries appended, laid out as one row of 10240. -/
def padBiasRow (b : (⟨S10000, .f32⟩ : BufTy).Contents (Elt Ideal)) : (⟨S1x10240, .f32⟩ : BufTy).Contents (Elt Ideal) :=
  shapeCast S1x10240 (pad S10240 ![0] ![240] ![0] b (sitofp (F := Ideal) .f32 (constantI S_ 32 0#32)) pads_S10000_S10240_02400 h_S_)
    shapeCasts_S10240_S1x10240

variable (m : (ℓ : Loc nD τ sig) → Buf (Elt Ideal) ℓ) (ρ : Dev nD → PrngReg)

/-- The first launch's activations: the normalised activations, narrowed. -/
theorem entry_act (c : Dev nD) :
    W6 m ρ c (Proc.devRef .tc main_v26)
      = (truncf .bf16 (Cert.ReferenceIdeal.Read.val_main_v6 (F := Ideal) (m ((c : Thread nD τ).loc main_arg0)) : FVec Ideal S8192x1024 .f32) bitsLt_bf16_f32 : FVec Ideal S8192x1024 .bf16) := by
  dsimp only [W6, W5, W4, W3, W2, W1, W0, hostOps0_5, hostOps0_4, hostOps0_3, hostOps0_2, hostOps0_1, hostOps0]
  after_results_simp <;> rfl

/-- The second launch's activations: the ones with the margin subtracted, narrowed. -/
theorem entry_adj (c : Dev nD) :
    W6 m ρ c (Proc.devRef .tc main_v27)
      = (truncf .bf16 (Cert.ReferenceIdeal.Read.val_main_v27 (F := Ideal) (m ((c : Thread nD τ).loc main_arg0)) (m ((c : Thread nD τ).loc main_arg1)) : FVec Ideal S8192x1024 .f32) bitsLt_bf16_f32 : FVec Ideal S8192x1024 .bf16) := by
  dsimp only [W6, W5, W4, W3, W2, W1, W0, hostOps0_5, hostOps0_4, hostOps0_3, hostOps0_2, hostOps0_1, hostOps0]
  after_results_simp <;> rfl

/-- Both launches' weights: the padded weights, narrowed. -/
theorem entry_wgt (c : Dev nD) :
    W6 m ρ c (Proc.devRef .tc main_v28)
      = (truncf .bf16 (padWgt (m ((c : Thread nD τ).loc main_arg2)) : FVec Ideal S10240x1024 .f32) bitsLt_bf16_f32 : FVec Ideal S10240x1024 .bf16) := by
  dsimp only [W6, W5, W4, W3, W2, W1, W0, hostOps0_5, hostOps0_4, hostOps0_3, hostOps0_2, hostOps0_1, hostOps0]
  after_results_simp <;> rfl

/-- Both launches' bias row: the padded biases as one row. -/
theorem entry_bias (c : Dev nD) :
    W6 m ρ c (Proc.devRef .tc main_v25) = padBiasRow (m ((c : Thread nD τ).loc main_arg3)) := by
  dsimp only [W6, W5, W4, W3, W2, W1, W0, hostOps0_5, hostOps0_4, hostOps0_3, hostOps0_2, hostOps0_1, hostOps0]
  after_results_simp <;> rfl

end Cert.HostEntry

end
-- ==== Proof.LibHostRowReads.lean ====
/-
  Three host operations on matrices, read at an index given by coordinates.

  * a host sum over the columns of an `[a, n]` array of extended reals, read at row `p`, is the initial value plus the
    sum over `k : Fin n` of the entries `(p, k)`;
  * an `[a]` vector placed as the column `[a, 1]` by `broadcast_in_dim` along axis 0 holds, at `(p, u)`, entry `p`;
  * an `[a, n]` array padded with extra rows BELOW (no low padding, no interior padding, columns untouched) holds, at
    a row that is one of the operand's, the operand's entry.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.HostRowReads

open Idealize.ShloMosaic Idealize.ShloMosaic.ValueIdx

/-- A host sum over the columns, read at row `p`: the initial value plus that row's entries summed. -/
theorem hostReduceAdd_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) (Finset.sum_congr rfl fun k _ => ?_)
  exact congrArg x (funext fun c => Fin.ext (by match c with | ⟨0, _⟩ => rfl | ⟨1, _⟩ => rfl))

variable {α : Type}

/-- A vector placed as a column: at `(p, u)` it holds the vector's entry `p`. -/
theorem broadcastInDim_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v _ _ fun ax => by
    match ax with
    | ⟨0, _⟩ =>
      show p.val = if a = 1 then 0 else p.val
      split
      · have := p.isLt; omega
      · rfl

/-- Rows appended below: at a row `c'` that is the operand's row `c`, the padded array holds the operand's entry. -/
theorem pad_rows_below_apply {a a' n e : ℕ} (x : (⟨2, ![a, n]⟩ : Shape).Idx → α) {u : Shape} (v : u.Idx → α)
    (h : (⟨2, ![a, n]⟩ : Shape).Pads (![0, 0] : Fin 2 → Nat) ![e, 0] ![0, 0] ⟨2, ![a', n]⟩) (hu : 0 < u.numel)
    (c : Fin a) (c' : Fin a') (hc : c'.val = c.val) (k : Fin n) :
    pad ⟨2, ![a', n]⟩ ![0, 0] ![e, 0] ![0, 0] x v h hu (ix2 c' k) = x (ix2 c k) :=
  pad_apply_of_inside _ _ _ x v h hu _ _ fun ax => by
    match ax with
    | ⟨0, _⟩ => show c'.val = 0 + c.val * (0 + 1); omega
    | ⟨1, _⟩ => show k.val = 0 + k.val * (0 + 1); omega

end Cert.HostRowReads

end
-- ==== Proof.SliceScores.lean ====
/-
  Padding the class axis and slicing it off again changes nothing.

  The launches score against the weights with 240 rows appended and the biases with 240 entries appended, and the
  program keeps only the first 10000 columns of what they write. A kept column `c < 10000` reads padded weight row `c`
  and padded bias `c`, which are the weights' own row and the biases' own entry: the appended rows are never read. The
  narrowing of the inputs to sixteen bits is the identity on the extended reals. So the kept part is `Affine.scores` of
  the activations, weights and biases themselves.
-/
import proofs.«173671_j35278861369532_1_alg».proof.Proof.HostEntry
import proofs.«173671_j35278861369532_1_alg».proof.Proof.PadScores
import proofs.«173671_j35278861369532_1_alg».proof.Proof.Affine
import proofs.«173671_j35278861369532_1_alg».proof.Proof.LibHostRowReads
import Idealize.ShloMosaic.Lib.ValueLayout
import Idealize.ShloMosaic.Lib.KernelVsHost

noncomputable section

open scoped BigOperators

namespace Cert.SliceScores

open Cert.KernelIdeal Cert.KernelIdeal.Gen Cert.PadScores Cert.HostEntry Cert.Affine
open Idealize.ShloMosaic Idealize.ShloMosaic.ValueIdx

/-- A padded weight row that is one of the weights' own rows holds that row. -/
theorem padWgt_apply (w : (⟨S10000x1024, .f32⟩ : BufTy).Contents (Elt Ideal)) (c : Fin 10000) (s : Fin 10240) (hs : s.val = c.val) (k : Fin 1024) :
    padWgt w (ix2 s k) = w (ix2 c k) := by
  unfold padWgt
  exact Cert.HostRowReads.pad_rows_below_apply w _ pads_S10000x1024_S10240x1024_02400_000 h_S_ c s hs k

/-- A padded bias that is one of the biases' own entries holds that entry. -/
theorem padBiasRow_apply (b : (⟨S10000, .f32⟩ : BufTy).Contents (Elt Ideal)) (c : Fin 10000) (s : Fin 10240) (hs : s.val = c.val) :
    padBiasRow b (ix2 (0 : Fin 1) s) = b (ix1 c) := by
  unfold padBiasRow
  refine (shapeCast_a_1a_apply _ shapeCasts_S10240_S1x10240 (0 : Fin 1) s).trans ?_
  refine pad_apply_of_inside _ _ _ b _ pads_S10000_S10240_02400 h_S_ (ix1 s) (ix1 c) fun a => ?_
  match a with
  | ⟨0, _⟩ => show s.val = 0 + c.val * (0 + 1); omega

/-- The first 10000 columns of the padded scores of the narrowed activations, the narrowed padded weights and the padded
    bias row are the scores of the activations, the weights and the biases. -/
theorem slice_padScores (a : FVec Ideal S8192x1024 .f32) (w : (⟨S10000x1024, .f32⟩ : BufTy).Contents (Elt Ideal))
    (b : (⟨S10000, .f32⟩ : BufTy).Contents (Elt Ideal)) :
    extractStridedSlice S8192x10000 ![0, 0]
        (padScores (truncf .bf16 a bitsLt_bf16_f32 : FVec Ideal S8192x1024 .bf16)
          (truncf .bf16 (padWgt w : FVec Ideal S10240x1024 .f32) bitsLt_bf16_f32 : FVec Ideal S10240x1024 .bf16) (padBiasRow b))
        slices_S8192x10240_S8192x10000_0_0
      = scores a w b := by
  funext i
  obtain ⟨p, c, rfl⟩ : ∃ (p : Fin 8192) (c : Fin 10000), i = ix2 p c := ⟨i 0, i 1, eq_ix2 i⟩
  have hc : c.val < 10000 := c.isLt
  refine (slice2_axis1_apply 0 _ slices_S8192x10240_S8192x10000_0_0 p c (⟨c.val, by omega⟩ : Fin 10240) (Nat.zero_add _).symm).trans ?_
  unfold padScores scores
  refine congrArg₂ (· + ·) (Finset.sum_congr rfl fun k _ => congrArg₂ (· * ·) rfl ?_) ?_
  · exact padWgt_apply w c _ rfl k
  · exact padBiasRow_apply b c _ rfl

end Cert.SliceScores

end
-- ==== Proof.KernelScores.lean ====
/-
  The kernel program's two results are the scores of its two activation arrays.

  The last boundary's contents at a result buffer are the first 10000 columns of a launch's output array (the two
  slices that end the program). A launch's output array is the padded scores of its three input arrays as the launch
  found them. The first launch finds the narrowed normalised activations, the narrowed padded weights and the padded bias
  row, as the host operations left them. The second finds the narrowed margin-subtracted activations, which the first
  launch does not touch, and the same weights and bias row, which the first launch only reads (an input array is as it
  was after a launch). Slicing the padding off, each result is `Affine.scores` of its activations with the weights and
  biases the program was given.
-/
import proofs.«173671_j35278861369532_1_alg».proof.Proof.KernelRun
import proofs.«173671_j35278861369532_1_alg».proof.Proof.Region0
import proofs.«173671_j35278861369532_1_alg».proof.Proof.Region1
import proofs.«173671_j35278861369532_1_alg».proof.Proof.SliceScores

set_option maxRecDepth 16384

noncomputable section

namespace Cert.KernelScores

open Cert.KernelIdeal Cert.KernelIdeal.Gen Cert.PadScores Cert.HostEntry Cert.Affine
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The two slices that end the program -/

/-- The loss logits are the first 10000 columns of the second launch's output array. -/
theorem tail_loss (c : Dev nD) :
    W9 m ρ c (Proc.devRef .tc main_v32)
      = extractStridedSlice S8192x10000 ![0, 0] (W8 m ρ c (Proc.devRef .tc main_v30)) slices_S8192x10240_S8192x10000_0_0 := by
  dsimp only [W9, hostOps2]
  after_results

/-- The predictions are the first 10000 columns of the first launch's output array. -/
theorem tail_predict (c : Dev nD) :
    W9 m ρ c (Proc.devRef .tc main_v31)
      = extractStridedSlice S8192x10000 ![0, 0] (W8 m ρ c (Proc.devRef .tc main_v29)) slices_S8192x10240_S8192x10000_0_0 := by
  dsimp only [W9, hostOps2]
  after_results

/-! ## What the second launch finds -/

/-- The margin-subtracted activations are no array of the first launch: they are as the host operations left them. -/
theorem second_act (c : Dev nD) :
    V7 m ρ c main_v27
      = (truncf .bf16 (Cert.ReferenceIdeal.Read.val_main_v27 (F := Ideal) (m ((c : Thread nD τ).loc main_arg0)) (m ((c : Thread nD τ).loc main_arg1)) : FVec Ideal S8192x1024 .f32) bitsLt_bf16_f32 : FVec Ideal S8192x1024 .bf16) :=
  (W7_of_ne m ρ c main_v27 (by decide)).trans (entry_adj m ρ c)

/-- The weights are an input of the first launch: after it they are as it found them. -/
theorem second_wgt (c : Dev nD) : V7 m ρ c main_v28 = V6 m ρ c main_v28 :=
  (W7_arr m ρ c 1).trans (((dat0 (V6 m ρ) c).arrAt_in 1 rfl cfg0.N).trans (A_eq0 (V6 m ρ) c 1))

/-- So is the bias row. -/
theorem second_bias (c : Dev nD) : V7 m ρ c main_v25 = V6 m ρ c main_v25 :=
  (W7_arr m ρ c 2).trans (((dat0 (V6 m ρ) c).arrAt_in 2 rfl cfg0.N).trans (A_eq0 (V6 m ρ) c 2))

/-! ## The two results -/

/-- The loss logits: the margin-subtracted activations scored against the weights and biases. -/
theorem loss_eq (c : Dev nD) :
    W9 m ρ c (Proc.devRef .tc main_v32)
      = scores (Cert.ReferenceIdeal.Read.val_main_v27 (F := Ideal) (m ((c : Thread nD τ).loc main_arg0)) (m ((c : Thread nD τ).loc main_arg1)))
          (m ((c : Thread nD τ).loc main_arg2)) (m ((c : Thread nD τ).loc main_arg3)) := by
  have hout : W8 m ρ c (Proc.devRef .tc main_v30)
      = padScores (V7 m ρ c main_v27) (V7 m ρ c main_v28) (V7 m ρ c main_v25) :=
    (W8_arr m ρ c 3).trans (Cert.Region1.final (V7 m ρ) c)
  rw [tail_loss, hout, second_act, second_wgt, second_bias]
  rw [show V6 m ρ c main_v28 = _ from entry_wgt m ρ c, show V6 m ρ c main_v25 = _ from entry_bias m ρ c]
  exact Cert.SliceScores.slice_padScores _ _ _

/-- The predictions: the normalised activations scored against the weights and biases. -/
theorem predict_eq (c : Dev nD) :
    W9 m ρ c (Proc.devRef .tc main_v31)
      = scores (Cert.ReferenceIdeal.Read.val_main_v6 (F := Ideal) (m ((c : Thread nD τ).loc main_arg0)))
          (m ((c : Thread nD τ).loc main_arg2)) (m ((c : Thread nD τ).loc main_arg3)) := by
  have hout : W8 m ρ c (Proc.devRef .tc main_v29)
      = padScores (V6 m ρ c main_v26) (V6 m ρ c main_v28) (V6 m ρ c main_v25) :=
    (W8_of_ne m ρ c main_v29 (by decide)).trans ((W7_arr m ρ c 3).trans (Cert.Region0.final (V6 m ρ) c))
  rw [tail_predict, hout]
  rw [show V6 m ρ c main_v26 = _ from entry_act m ρ c, show V6 m ρ c main_v28 = _ from entry_wgt m ρ c,
    show V6 m ρ c main_v25 = _ from entry_bias m ρ c]
  exact Cert.SliceScores.slice_padScores _ _ _

end Cert.KernelScores

end
-- ==== Proof.lean ====
/-
  A margin-softmax head: equivalence of the tiled kernel and its reference over the extended reals.

  Both programs take activations x (8192 × 1024), integer targets (8192), weights W (10000 × 1024) and biases b (10000).
  Both normalise each row of x by its norm (bounded below by 1e-12) and scale it by 32, giving `out`, and subtract 16 from
  entry `targets[i]` of row i, giving `out_adj`; these host operations are the same on both sides, with the same
  constants, and are never opened. Both return

      loss(p, c)    = Σ_k out_adj(p, k) · W(c, k) + b(c),
      predict(p, c) = Σ_k out(p, k) · W(c, k) + b(c).

  The reference computes each as one product with the transposed weights plus the bias broadcast over the rows. The
  kernel appends 240 zero rows to W and 240 zeros to b, narrows the activations and padded weights to sixteen bits (the
  identity on the extended reals), runs one launch per result over a 16 × 8 grid of 512 × 1280 output blocks — each block
  the product of 512 activation rows with 1280 padded weight rows over all 1024 features, plus those 1280 biases — and
  keeps the first 10000 columns. A kept column never reads an appended row, so both sides are the same sum of the same
  products followed by the same addition: no distributivity, cancellation or reordering across the sum is needed, and
  the finiteness precondition is not used. The idealisation pass rewrote nothing, so `preserves` is trivial.
-/
import proofs.«173671_j35278861369532_1_alg».proof.Defs
import proofs.«173671_j35278861369532_1_alg».proof.Proof.Gen.Kernel
import proofs.«173671_j35278861369532_1_alg».proof.Proof.Gen.Kernel.Skeleton
import proofs.«173671_j35278861369532_1_alg».proof.Proof.Gen.Kernel.Launch
import proofs.«173671_j35278861369532_1_alg».proof.Proof.Gen.Kernel.Points
import proofs.«173671_j35278861369532_1_alg».proof.Proof.Gen.Kernel.Frame
import proofs.«173671_j35278861369532_1_alg».proof.Proof.Gen.KernelIdeal
import proofs.«173671_j35278861369532_1_alg».proof.Proof.Gen.KernelIdeal.Skeleton
import proofs.«173671_j35278861369532_1_alg».proof.Proof.Gen.KernelIdeal.Launch
import proofs.«173671_j35278861369532_1_alg».proof.Proof.Gen.KernelIdeal.Points
import proofs.«173671_j35278861369532_1_alg».proof.Proof.Gen.KernelIdeal.Frame
import proofs.«173671_j35278861369532_1_alg».proof.Proof.Gen.ReferenceIdeal
import proofs.«173671_j35278861369532_1_alg».proof.Proof.Gen.ReferenceIdeal.Run
import proofs.«173671_j35278861369532_1_alg».proof.Proof.Gen.ReferenceIdeal.Read
import proofs.«173671_j35278861369532_1_alg».proof.Proof.Gen.Pre_finite_inputs
import proofs.«173671_j35278861369532_1_alg».proof.Proof.RefScores
import proofs.«173671_j35278861369532_1_alg».proof.Proof.KernelScores
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealisation. -/
theorem frame_ideal : Cert.frame_KernelIdeal := fun m ρ _ => Cert.KernelIdeal.Gen.frame m ρ

/-- The reference is host operations only: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealisation pass rewrote no operation. -/
theorem preserves : Cert.preserves_Kernel_KernelIdeal := trivial

/-- From memories agreeing on the four arguments both programs end with the loss logits at the scores of the
    margin-subtracted activations and the predictions at the scores of the normalised activations. -/
theorem algebraic : Cert.algebraic_KernelIdeal_ReferenceIdeal := by
  intro m ρ m' ρ' _ hagree
  refine ⟨fun c => Cert.Affine.scores
            (Cert.ReferenceIdeal.Read.val_main_v27 (F := Ideal) (m ((c.tc : Thread Cert.KernelIdeal.nD Cert.KernelIdeal.τ).loc Cert.KernelIdeal.main_arg0))
              (m ((c.tc : Thread Cert.KernelIdeal.nD Cert.KernelIdeal.τ).loc Cert.KernelIdeal.main_arg1)))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3)),
          fun c => Cert.Affine.scores
            (Cert.ReferenceIdeal.Read.val_main_v6 (F := Ideal) (m ((c.tc : Thread Cert.KernelIdeal.nD Cert.KernelIdeal.τ).loc Cert.KernelIdeal.main_arg0)))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelScores.loss_eq m ρ c), (h c).2.1.trans (Cert.KernelScores.predict_eq m ρ c), (h c).2.2⟩)
      (Cert.KernelRun.run_final (F := Ideal) m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v32_eq, Cert.RefScores.loss_eq,
        (hagree c).1, (hagree c).2.1, (hagree c).2.2.1, (hagree c).2.2.2]
    · rw [(h c).2.1, Cert.ReferenceIdeal.Read.val_main_v11_eq, Cert.RefScores.predict_eq,
        (hagree c).1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
